-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x784 : Shape := ⟨2, ![64, 784]⟩
abbrev S_ : Shape := ⟨0, ![]⟩
abbrev S64x1001 : Shape := ⟨2, ![64, 1001]⟩
abbrev S64 : Shape := ⟨1, ![64]⟩
abbrev S64x1 : Shape := ⟨2, ![64, 1]⟩

class Facts : Prop where
  pads_S64x784_S64x1001_000_02170 : S64x784.Pads (![0, 0] : Fin 2 → Nat) ![0, 217] ![0, 0] S64x1001
  h_S_ : 0 < S_.numel
  bcast_S_S64x784 : S_.BroadcastsInDim S64x784 (![] : Fin 0 → Fin S64x784.rank)
  reducesTo_S64x784_S_d0_1 : S64x784.ReducesTo [0, 1] S_
  reducesTo_S64x1001_S64_d1 : S64x1001.ReducesTo [1] S64
  bcast_S64_S64x1_0 : S64.BroadcastsInDim S64x1 (![0] : Fin 1 → Fin S64x1.rank)
  bcast_S_S64x1 : S_.BroadcastsInDim S64x1 (![] : Fin 0 → Fin S64x1.rank)
  reducesTo_S64x1_S_d0_1 : S64x1.ReducesTo [0, 1] S_

variable [Facts]

def fn {F : FTy → Type} [FloatOps F] (main_arg0 : FVec F S64x784 .f32) : IVec S_ 1 :=
  let main_cst : FVec F S_ .f32 := constant S_ .f32 0x00000000#32
  let main_v0 : FVec F S64x1001 .f32 := (fun x v => pad S64x1001 ![0, 0] ![0, 217] ![0, 0] x v pads_S64x784_S64x1001_000_02170 h_S_) main_arg0 main_cst
  let main_v1 : FVec F S64x784 .f32 := Host.absf main_arg0
  let main_cst_0 : FVec F S_ .f32 := constant S_ .f32 0x7F800000#32
  let main_v2 : FVec F S64x784 .f32 := broadcastInDim S64x784 ![] bcast_S_S64x784 main_cst_0
  let main_v3 : IVec S64x784 1 := cmpf .olt main_v1 main_v2
  let main_c : IVec S_ 1 := constantI S_ 1 1#1
  let main_v4 : IVec S_ 1 := (fun x v => Host.reduce IntOp.andi x v reducesTo_S64x784_S_d0_1 h_S_) main_v3 main_c
  let main_v5 : FVec F S64x1001 .f32 := mulf main_v0 main_v0
  let main_cst_1 : FVec F S_ .f32 := constant S_ .f32 0x00000000#32
  let main_v6 : FVec F S64 .f32 := (fun x v => Host.reduceAdd x v reducesTo_S64x1001_S64_d1 h_S_) main_v5 main_cst_1
  let main_v7 : FVec F S64x1 .f32 := broadcastInDim S64x1 ![0] bcast_S64_S64x1_0 main_v6
  let main_v8 : FVec F S64x1 .f32 := Host.sqrt main_v7
  let main_cst_2 : FVec F S_ .f32 := constant S_ .f32 0x00000000#32
  let main_v9 : FVec F S64x1 .f32 := broadcastInDim S64x1 ![] bcast_S_S64x1 main_cst_2
  let main_v10 : IVec S64x1 1 := cmpf .ogt main_v8 main_v9
  let main_c_3 : IVec S_ 1 := constantI S_ 1 1#1
  let main_v11 : IVec S_ 1 := (fun x v => Host.reduce IntOp.andi x v reducesTo_S64x1_S_d0_1 h_S_) main_v10 main_c_3
  let main_v12 : IVec S_ 1 := andi main_v4 main_v11
  main_v12
-- ==== Kernel.lean ====
abbrev S64x784 : Shape := ⟨2, ![64, 784]⟩
abbrev S_ : Shape := ⟨0, ![]⟩
abbrev S64x1001 : Shape := ⟨2, ![64, 1001]⟩
abbrev S64 : Shape := ⟨1, ![64]⟩
abbrev S64x1 : Shape := ⟨2, ![64, 1]⟩
abbrev S64x1001x1001 : Shape := ⟨3, ![64, 1001, 1001]⟩
abbrev S16x128 : Shape := ⟨2, ![16, 128]⟩
abbrev S16x1001 : Shape := ⟨2, ![16, 1001]⟩
abbrev S16x1 : Shape := ⟨2, ![16, 1]⟩
abbrev S16x128x1001 : Shape := ⟨3, ![16, 128, 1001]⟩
abbrev S16x128x1 : Shape := ⟨3, ![16, 128, 1]⟩
abbrev S16x1x1001 : Shape := ⟨3, ![16, 1, 1001]⟩

abbrev nBuf : Space → Nat
  | .hbm => 13
  | .vmem => 8
  | .smem => 0
  | _ => 0

abbrev bufTy : (tb : Table) → Fin (tcTables nBuf tb) → BufTy
  | .hbm, ⟨0, _⟩ => ⟨S64x784, .f32⟩
  | .hbm, ⟨1, _⟩ => ⟨S_, .i32⟩
  | .hbm, ⟨2, _⟩ => ⟨S_, .f32⟩
  | .hbm, ⟨3, _⟩ => ⟨S64x1001, .f32⟩
  | .hbm, ⟨4, _⟩ => ⟨S64x1001, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S_, .f32⟩
  | .hbm, ⟨10, _⟩ => ⟨S64x1, .f32⟩
  | .hbm, ⟨11, _⟩ => ⟨S64x1, .f32⟩
  | .hbm, ⟨12, _⟩ => ⟨S64x1001x1001, .f32⟩
  | .local _ .vmem, ⟨0, _⟩ => ⟨S16x128, .f32⟩
  | .local _ .vmem, ⟨1, _⟩ => ⟨S16x128, .f32⟩
  | .local _ .vmem, ⟨2, _⟩ => ⟨S16x1001, .f32⟩
  | .local _ .vmem, ⟨3, _⟩ => ⟨S16x1001, .f32⟩
  | .local _ .vmem, ⟨4, _⟩ => ⟨S16x1, .f32⟩
  | .local _ .vmem, ⟨5, _⟩ => ⟨S16x1, .f32⟩
  | .local _ .vmem, ⟨6, _⟩ => ⟨S16x128x1001, .f32⟩
  | .local _ .vmem, ⟨7, _⟩ => ⟨S16x128x1001, .f32⟩
  | _, _ => ⟨S64x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_call1_v0 : Ref sig .tc := ⟨.hbm, 4, rfl⟩
abbrev main_call1_cst : Ref sig .tc := ⟨.hbm, 5, rfl⟩
abbrev main_call1_v1 : Ref sig .tc := ⟨.hbm, 6, rfl⟩
abbrev main_call1_v2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1001 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x128x1001 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S64x784_S64x1001_000_02170 : S64x784.Pads (![0, 0] : Fin 2 → Nat) ![0, 217] ![0, 0] S64x1001
  h_S_ : 0 < S_.numel
  reducesTo_S64x1001_S64_d1 : S64x1001.ReducesTo [1] S64
  bcast_S64_S64x1_0 : S64.BroadcastsInDim S64x1 (![0] : Fin 1 → Fin S64x1.rank)
  bcast_S_S64x1 : S_.BroadcastsInDim S64x1 (![] : Fin 0 → Fin S64x1.rank)
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S16x1_S16x128 : S16x1.Broadcasts S16x128
  inb_S16x1001_S16x1001_0_0 : ∀ a, (![0, 0] : Fin 2 → Nat) a + S16x1001.size a ≤ S16x1001.size a
  h_S16x1001 : 0 < S16x1001.numel
  shapeCasts_S16x1001_S16x1001 : S16x1001.ShapeCasts S16x1001
  broadcasts_S16x1_S16x1001 : S16x1.Broadcasts S16x1001
  shapeCasts_S16x128_S16x128x1 : S16x128.ShapeCasts S16x128x1
  shapeCasts_S16x1001_S16x1x1001 : S16x1001.ShapeCasts S16x1x1001
  broadcasts_S16x128x1_S16x128x1001 : S16x128x1.Broadcasts S16x128x1001
  broadcasts_S16x1x1001_S16x128x1001 : S16x1x1001.Broadcasts S16x128x1001
  inb_S16x128x1001_S16x128x1001_0_0_0 : ∀ a, (![0, 0, 0] : Fin 3 → Nat) a + S16x128x1001.size a ≤ S16x128x1001.size a
  h_S16x128x1001 : 0 < S16x128x1001.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x128.size a < S64x1001.size a
  hwx0_0 : ∀ i : grid0.Coords, EltTy.bits .f32 = 32 ∨ (Rect.unit (s := S64x1001) (fun a => cc0_transform_0 i a * S16x128.size a) (fun a => (Pipeline.Clip.of (cc0_transform_0 i a) (S16x128.size a) (S64x1001.size a)).extent (S16x128.size a)) fun a => Pipeline.Clip.inb (Pipeline.Clip.ok_of (hstart0_0 i a))).WholeWords (EltTy.packing .f32)
  hwxs0_0 : ∀ i : grid0.Coords, EltTy.bits .f32 = 32 ∨ (Rect.unit (s := S16x128) (fun _ => 0) (fun a => (Pipeline.Clip.of (cc0_transform_0 i a) (S16x128.size a) (S64x1001.size a)).extent (S16x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1001.size a ≤ S64x1001.size a
  hwx0_1 : ∀ i : grid0.Coords, EltTy.bits .f32 = 32 ∨ (Rect.block (s := S64x1001) S16x1001.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S64x1.size a
  hwx0_2 : ∀ i : grid0.Coords, EltTy.bits .f32 = 32 ∨ (Rect.block (s := S64x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S16x128x1001.size a < S64x1001x1001.size a
  hwx0_3 : ∀ i : grid0.Coords, EltTy.bits .f32 = 32 ∨ (Rect.unit (s := S64x1001x1001) (fun a => cc0_transform_3 i a * S16x128x1001.size a) (fun a => (Pipeline.Clip.of (cc0_transform_3 i a) (S16x128x1001.size a) (S64x1001x1001.size a)).extent (S16x128x1001.size a)) fun a => Pipeline.Clip.inb (Pipeline.Clip.ok_of (hstart0_3 i a))).WholeWords (EltTy.packing .f32)
  hwxs0_3 : ∀ i : grid0.Coords, EltTy.bits .f32 = 32 ∨ (Rect.unit (s := S16x128x1001) (fun _ => 0) (fun a => (Pipeline.Clip.of (cc0_transform_3 i a) (S16x128x1001.size a) (S64x1001x1001.size a)).extent (S16x128x1001.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpecClip (Memref.whole main_v0) S16x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S16x1001.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v4) S16x128x1001.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x784 : Shape := ⟨2, ![64, 784]⟩
abbrev S_ : Shape := ⟨0, ![]⟩
abbrev S64x1001 : Shape := ⟨2, ![64, 1001]⟩
abbrev S64 : Shape := ⟨1, ![64]⟩
abbrev S64x1 : Shape := ⟨2, ![64, 1]⟩
abbrev S64x1001x1 : Shape := ⟨3, ![64, 1001, 1]⟩
abbrev S64x1x1001 : Shape := ⟨3, ![64, 1, 1001]⟩
abbrev S64x1001x1001 : Shape := ⟨3, ![64, 1001, 1001]⟩

abbrev nBuf : Space → Nat
  | .hbm => 16
  | .vmem => 0
  | .smem => 0
  | _ => 0

abbrev bufTy : (tb : Table) → Fin (tcTables nBuf tb) → BufTy
  | .hbm, ⟨0, _⟩ => ⟨S64x784, .f32⟩
  | .hbm, ⟨1, _⟩ => ⟨S_, .i32⟩
  | .hbm, ⟨2, _⟩ => ⟨S_, .f32⟩
  | .hbm, ⟨3, _⟩ => ⟨S64x1001, .f32⟩
  | .hbm, ⟨4, _⟩ => ⟨S64x1001, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S64x1001, .f32⟩
  | .hbm, ⟨10, _⟩ => ⟨S64x1001, .f32⟩
  | .hbm, ⟨11, _⟩ => ⟨S64x1001x1, .f32⟩
  | .hbm, ⟨12, _⟩ => ⟨S64x1x1001, .f32⟩
  | .hbm, ⟨13, _⟩ => ⟨S64x1001x1001, .f32⟩
  | .hbm, ⟨14, _⟩ => ⟨S64x1001x1001, .f32⟩
  | .hbm, ⟨15, _⟩ => ⟨S64x1001x1001, .f32⟩
  | _, _ => ⟨S64x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_call1_v0 : Ref sig .tc := ⟨.hbm, 4, rfl⟩
abbrev main_call1_cst : Ref sig .tc := ⟨.hbm, 5, rfl⟩
abbrev main_call1_v1 : Ref sig .tc := ⟨.hbm, 6, rfl⟩
abbrev main_call1_v2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  pads_S64x784_S64x1001_000_02170 : S64x784.Pads (![0, 0] : Fin 2 → Nat) ![0, 217] ![0, 0] S64x1001
  h_S_ : 0 < S_.numel
  reducesTo_S64x1001_S64_d1 : S64x1001.ReducesTo [1] S64
  bcast_S64_S64x1_0 : S64.BroadcastsInDim S64x1 (![0] : Fin 1 → Fin S64x1.rank)
  bcast_S64x1_S64x1001_0_1 : S64x1.BroadcastsInDim S64x1001 (![0, 1] : Fin 2 → Fin S64x1001.rank)
  bcast_S64x1001_S64x1001x1_0_1 : S64x1001.BroadcastsInDim S64x1001x1 (![0, 1] : Fin 2 → Fin S64x1001x1.rank)
  bcast_S64x1001_S64x1x1001_0_2 : S64x1001.BroadcastsInDim S64x1x1001 (![0, 2] : Fin 2 → Fin S64x1x1001.rank)
  bcast_S64x1001x1_S64x1001x1001_0_1_2 : S64x1001x1.BroadcastsInDim S64x1001x1001 (![0, 1, 2] : Fin 3 → Fin S64x1001x1001.rank)
  bcast_S64x1x1001_S64x1001x1001_0_1_2 : S64x1x1001.BroadcastsInDim S64x1001x1001 (![0, 1, 2] : Fin 3 → Fin S64x1001x1001.rank)

variable [Facts₀]

class Facts : Prop extends Facts₀ where

variable [Facts]
-- ==== Proof.KwData.lean ====
/-
  The kernel's launch data. The program pads the argument x : [64, 784] with zeros to a state of shape
  [64, 1001], takes each row's Euclidean norm n and its reciprocal inv = 1 / n on the host, and then runs
  one pipelined region over a grid of 4 x 8 points (b, i): window 0 is the (16, 128) block (b, i) of the
  state, window 1 the (16, 1001) block (b, 0) of the SAME state array, window 2 the (16, 1) block (b, 0)
  of inv, and window 3 the (16, 128, 1001) block (b, i, 0) of the result [64, 1001, 1001]. The last block
  along the axis of extent 1001 overhangs the array by 23 (1001 = 7 * 128 + 105), for window 0 (columns)
  and window 3 (its middle axis).

  This module states what the region finds in the arrays when it is entered (V: the contents after the
  host operations), that the program is those host operations followed by the region, each window's block
  at a grid point as read off V, and the proof data: what every staging buffer holds after the body at a
  point. The inputs' buffers hold their blocks (window 0's filled out past the array's end with a word
  nothing reads); the result's buffer holds the body's product of the three.
-/
import proofs.«111341_j33603824124046_2_alg».proof.Proof.Gen.Kernel.Launch
import proofs.«111341_j33603824124046_2_alg».proof.Proof.Gen.Kernel.Skeleton
import proofs.«111341_j33603824124046_2_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Outer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core c's buffers when the region is entered: the launch contents after the eleven host operations (the
    index constant; the padding; the squares, their row sums, the square root; the constant one and the
    quotient). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The program is its host operations, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window w's block at point t — its part inside the array — read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The word that fills out a block past the array's end; nothing reads it. -/
abbrev pad0 : Elt F .f32 := Scalar.ofBits .f32 0#32

/-- The state's (16, 128) block at point t as a whole staging buffer: the block inside the array, the filler past its end. -/
def sblk (c : Dev nD) (t : Fin cfg0.N) : S16x128.Idx → Elt F .f32 :=
  win0_0.fill (grid0.coords t) (fun _ => pad0) (iblk m c 0 t)

/-- The proof data of the pipeline on core c: the arrays as the region finds them; after the body at point t the
    three input buffers at their blocks and the result's buffer at the body's product of them; no invariant (the body
    keeps nothing between points); nothing owed; the state array, which two windows read, held by halves. -/
def dats (_ : Fin 1) (c : Dev nD) : Dat τ (Elt F) Unit ℕ (UR sig nD τ) ℕ cfg0 c where
  A w := V m c (Pipeline.arrRef spec0 w)
  after w t := match w with
    | ⟨0, _⟩ => sblk m c t
    | ⟨1, _⟩ => iblk m c 1 t
    | ⟨2, _⟩ => iblk m c 2 t
    | ⟨3, _⟩ => k0_pay1 (iblk m c 2 t) (sblk m c t) (iblk m c 1 t)
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = sblk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay1 (iblk m c 2 t) (sblk m c t) (iblk m c 1 t) := by dsimp only [dats]

end Cert.Kernel.Outer

end
-- ==== Proof.LibUnitAxisLayout.lean ====
/-
  Layout operations around a unit axis, read at an index given by its coordinates, for any element type
  and any extents: a column [a, 1] broadcast along its rows to [a, b]; an [a, b] array cast to
  [a, b, 1] and an [a, c] array cast to [a, 1, c] (a trailing, a middle unit axis added); and those
  two shapes broadcast to [a, b, c]. Each only forgets or repeats a coordinate, so the result at
  (p, r, q) is the operand at the coordinates that remain, 0 on the unit axis. Together they read a
  batched outer product  x[:, :, None] * y[:, None, :]  entry by entry.
-/
import Idealize.ShloMosaic.Lib.ValueIdx
import Idealize.ShloMosaic.Lib.Pipeline.Value
import Idealize.ShloMosaic.Lib.ValueLayout

noncomputable section

namespace Cert.Lib.UnitAxisLayout

open Idealize.ShloMosaic Idealize.ShloMosaic.ValueIdx

/-! ## The layout operations of the body, each read at an index given by coordinates -/

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(p, r, q)`, the operand at `(p, r, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (r : Fin b) (q : Fin c) :
    broadcastTo ⟨3, ![a, b, c]⟩ v h (ix3 p r q) = v (ix3 p r (0 : Fin 1)) := by
  refine broadcastTo_apply v h (ix3 p r q) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

/-- An `[a, 1, c]` array broadcast to `[a, b, c]` reads, at `(p, r, q)`, the operand at `(p, 0, q)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (r : Fin b) (q : Fin c) :
    broadcastTo ⟨3, ![a, b, c]⟩ v h (ix3 p r q) = v (ix3 p (0 : Fin 1) q) := by
  refine broadcastTo_apply v h (ix3 p r q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

end Layout

end Cert.Lib.UnitAxisLayout

end
-- ==== Proof.KwPay.lean ====
/- The kernel body's arithmetic, read at an index, and its locality in the row block.

   The body loads a column `v0 : [16, 1]` of reciprocal norms and two blocks of the state, `v2 : [16, 128]` and
   `v6 : [16, 1001]`; it scales each block by the column broadcast along its rows, lays the first product out as
   `[16, 128, 1]` and the second as `[16, 1, 1001]`, broadcasts both to `[16, 128, 1001]` and multiplies. Every
   layout operation only forgets or repeats a coordinate, so entry `(p, r, q)` of the result is
   `(v2 (p, r) * v0 (p, 0)) * (v6 (p, q) * v0 (p, 0))`: it reads `v2` at `(p, r)` only. Hence the part of the
   result that a clipped write-back keeps depends on `v2` only through the part a like-clipped fetch filled. -/
import proofs.«111341_j33603824124046_2_alg».proof.Proof.Gen.Kernel.Skeleton
import proofs.«111341_j33603824124046_2_alg».proof.Proof.Gen.Kernel.Launch
import Idealize.ShloMosaic.Lib.ValueIdx
import Idealize.ShloMosaic.Lib.Pipeline.Value
import Idealize.ShloMosaic.Lib.ValueLayout
import proofs.«111341_j33603824124046_2_alg».proof.Proof.LibUnitAxisLayout

noncomputable section

namespace Cert.Kernel.Outer

open Cert.Kernel Cert.Kernel.Gen Idealize.ShloMosaic Idealize.ShloMosaic.ValueIdx Cert.Lib.UnitAxisLayout

variable {F : FTy → Type} [FloatOps F]

/-! ## The body's product at an index -/

/-- THE BODY AT AN INDEX: entry `(p, r, q)` of the stored product is
    `(v2 (p, r) * v0 (p, 0)) * (v6 (p, q) * v0 (p, 0))`, at every float instance. -/
theorem pay_apply (v0 : Vec F S16x1 .f32) (v2 : Vec F S16x128 .f32) (v6 : Vec F S16x1001 .f32)
    (p : Fin 16) (r : Fin 128) (q : Fin 1001) :
    k0_pay1 v0 v2 v6 (ix3 p r q)
      = FloatOps.mulf (FloatOps.mulf (v2 (ix2 p r)) (v0 (ix2 p (0 : Fin 1))))
          (FloatOps.mulf (v6 (ix2 p q)) (v0 (ix2 p (0 : Fin 1)))) := by
  unfold k0_pay1
  simp only [shapeCast_self]
  refine congrArg₂ FloatOps.mulf ?_ ?_
  · refine (broadcastTo_ab1_abc_apply _ _ p r q).trans ?_
    refine (shapeCast_ab_ab1_apply _ _ p r (0 : Fin 1)).trans ?_
    exact congrArg (FloatOps.mulf (v2 (ix2 p r))) (broadcastTo_a1_ab_apply _ _ p r)
  · refine (broadcastTo_a1c_abc_apply _ _ p r q).trans ?_
    refine (shapeCast_ac_a1c_apply _ _ p (0 : Fin 1) q).trans ?_
    exact congrArg (FloatOps.mulf (v6 (ix2 p q))) (broadcastTo_a1_ab_apply _ _ p q)

/-! ## Locality in the row block -/

/-- The fetched block of the state and the written block of the product are cut alike on the batch axis … -/
theorem xsize_eq0 (i : grid0.Coords) : win0_0.xsize i 0 = win0_3.xsize i 0 := rfl

/-- … and on the row axis: both are block `i 1` of 128 rows clipped against the extent 1001. -/
theorem xsize_eq1 (i : grid0.Coords) : win0_0.xsize i 1 = win0_3.xsize i 1 := rfl

/-- ROW LOCALITY: the part of the product that the clipped write-back keeps depends on the first state block only
    through the part that the like-clipped fetch filled. -/
theorem cut_pay (i : grid0.Coords) (v0 : Vec F S16x1 .f32) (X X' : Vec F S16x128 .f32) (v6 : Vec F S16x1001 .f32)
    (h : win0_0.cut i X = win0_0.cut i X') :
    win0_3.cut i (k0_pay1 v0 X v6) = win0_3.cut i (k0_pay1 v0 X' v6) := by
  funext j
  have hp : (j 0).val < 16 := Nat.lt_of_lt_of_le (j 0).isLt (win0_3.xsize_le i 0)
  have hr : (j 1).val < 128 := Nat.lt_of_lt_of_le (j 1).isLt (win0_3.xsize_le i 1)
  have hq : (j 2).val < 1001 := Nat.lt_of_lt_of_le (j 2).isLt (win0_3.xsize_le i 2)
  have e3 : win0_3.xinj i j = ix3 (⟨(j 0).val, hp⟩ : Fin 16) (⟨(j 1).val, hr⟩ : Fin 128) (⟨(j 2).val, hq⟩ : Fin 1001) :=
    funext fun a => Fin.ext (by match a with | ⟨0, _⟩ => rfl | ⟨1, _⟩ => rfl | ⟨2, _⟩ => rfl)
  show k0_pay1 v0 X v6 (win0_3.xinj i j) = k0_pay1 v0 X' v6 (win0_3.xinj i j)
  rw [e3, pay_apply, pay_apply]
  -- the index of the fetched part with the same batch and row coordinates
  let j0 : (win0_0.xblock i).Idx := fun a => match a with
    | ⟨0, _⟩ => ⟨(j 0).val, Nat.lt_of_lt_of_eq (j 0).isLt (xsize_eq0 i).symm⟩
    | ⟨1, _⟩ => ⟨(j 1).val, Nat.lt_of_lt_of_eq (j 1).isLt (xsize_eq1 i).symm⟩
  have e2 : win0_0.xinj i j0 = ix2 (⟨(j 0).val, hp⟩ : Fin 16) (⟨(j 1).val, hr⟩ : Fin 128) :=
    funext fun a => Fin.ext (by match a with | ⟨0, _⟩ => rfl | ⟨1, _⟩ => rfl)
  have hX : X (ix2 (⟨(j 0).val, hp⟩ : Fin 16) (⟨(j 1).val, hr⟩ : Fin 128))
      = X' (ix2 (⟨(j 0).val, hp⟩ : Fin 16) (⟨(j 1).val, hr⟩ : Fin 128)) := by
    have := congrFun h j0
    rw [← e2]; exact this
  rw [hX]

end Cert.Kernel.Outer

end
-- ==== Proof.KwBody.lean ====
/-
  The body of the region at one grid point. It loads the three input buffers whole, multiplies the state's
  (16, 128) block and its (16, 1001) row block each by the column of reciprocal norms, forms their outer
  product per row, and stores it over the whole result buffer. So the result buffer ends at one pure
  function of the three input buffers, whatever it held.

  Window 0's buffer is handed to the body holding the state's block on the columns inside the array and
  words nothing names past the array's end (the last block along that axis overhangs it). Entry (p, r, q)
  of the product reads the (16, 128) buffer at (p, r) only, and the write-back of the result cuts the same
  rows r off as the fetch cut columns, so the part of the result that is written back does not depend on
  those words: that is all the obligation of a clipped window asks.
-/
import proofs.«111341_j33603824124046_2_alg».proof.Proof.KwData
import proofs.«111341_j33603824124046_2_alg».proof.Proof.KwPay
import Idealize.ShloMosaic.Lib.Pipeline.Value

set_option maxRecDepth 16384

noncomputable section

namespace Cert.Kernel.Outer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each the whole of its buffer -/

abbrev rInv : Rect S16x1 := Rect.unit (s := S16x1) ![0, 0] S16x1.size inb_S16x1_S16x1_0_0
abbrev rSi : Rect S16x128 := Rect.unit (s := S16x128) ![0, 0] S16x128.size inb_S16x128_S16x128_0_0
abbrev rSj : Rect S16x1001 := Rect.unit (s := S16x1001) ![0, 0] S16x1001.size inb_S16x1001_S16x1001_0_0
abbrev rOut : Rect S16x128x1001 := Rect.unit (s := S16x128x1001) ![0, 0, 0] S16x128x1001.size inb_S16x128x1001_S16x128x1001_0_0_0

/-- The result buffer after the body, from the input buffers: its one store, over what the three loads read. -/
def outOf (x0 : Vec F S16x128 .f32) (x1 : Vec F S16x1001 .f32) (x2 : Vec F S16x1 .f32) : Vec F S16x128x1001 .f32 :=
  View.canon [⟨rOut, k0_pay1 (View.ld x2 rInv) (View.ld x0 rSi) (View.ld x1 rSj)⟩]

/-- The one store covers the buffer. -/
theorem coverOut (p0 : Vec F S16x128x1001 .f32) (y : S16x128x1001.Idx) :
    ∃ pc ∈ ([⟨rOut, p0⟩] : List (View.Piece (Elt F) S16x128x1001 .f32)), y ∈ pc.1.set :=
  View.cover_of_tiled [⟨rOut, p0⟩] S16x128x1001.size (by rfl) y

/-- Every access is at offset zero and of the buffer's own size, so the result is the product of the buffers themselves. -/
theorem outOf_eq (x0 : Vec F S16x128 .f32) (x1 : Vec F S16x1001 .f32) (x2 : Vec F S16x1 .f32) :
    outOf x0 x1 x2 = k0_pay1 x2 x0 x1 := by
  have hz2 : (![0, 0] : Fin 2 → Nat) = fun _ => 0 := funext fun a => by fin_cases a <;> rfl
  have hz3 : (![0, 0, 0] : Fin 3 → Nat) = fun _ => 0 := funext fun a => by fin_cases a <;> rfl
  unfold outOf
  rw [View.canon_unit_zero hz3]
  simp only [View.ld_unit_zero (S := S16x1) hz2, View.ld_unit_zero (S := S16x128) hz2, View.ld_unit_zero (S := S16x1001) hz2]

/-! ## The body's triple -/

set_option maxHeartbeats 1000000 in
/-- The body on whole staging memrefs, the inputs' at contents x0, x1, x2 and the result's at anything, runs to the
    continuation holding the inputs' as they were and the result's at their product. -/
theorem sound_kernel (c : Dev nD) (E : Set ℕ) (i : grid0.Coords)
    (arg2 : Memref sig .tc .vmem S16x128 .f32) (harg2 : arg2.IsWhole) (arg3 : Memref sig .tc .vmem S16x1001 .f32) (harg3 : arg3.IsWhole)
    (arg4 : Memref sig .tc .vmem S16x1 .f32) (harg4 : arg4.IsWhole) (arg5 : Memref sig .tc .vmem S16x128x1001 .f32) (harg5 : arg5.IsWhole)
    (x0 : Vec F S16x128 .f32) (x1 : Vec F S16x1001 .f32) (x2 : Vec F S16x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outOf x0 x1 x2)) -∗ K ⟨⟩))
      ⊢ wp frame (wpE (defs₀ (F := F)) Variants.none c none) E (cc0__outer_kernel i arg2 harg2 arg3 harg3 arg4 harg4 arg5 harg5) K := by
  simp only [cc0__outer_kernel_eq_skeleton]; unfold cc0__outer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## What the body finds in each buffer -/

/-- Window 0 is fetched at every point: its buffer holds the state's block on the columns inside the array, and d elsewhere. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]; try rfl

/-- Windows 1 and 2 are fetched where the batch coordinate moves; in between their block index stands still,
    and the body leaves them as it found them: at every point they hold their blocks. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- The result's window is written back at every point: its buffer is fresh each time. -/
theorem before0_3 (c : Dev nD) (t : Fin cfg0.N) (d) : (dats m 0 c).before 3 t d = d := by
  refine (dats m 0 c).before_out_reset 3 rfl t ?_ d
  by_cases h0 : t.val = 0
  · exact .inl h0
  · exact .inr ⟨h0, flush0_3 _⟩

/-! ## The body obligation -/

/-- What the body is called with at point t: the invariant, what the core owes, and each window's current buffer at what
    the pipeline left in it; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: windows 1 and 2 at their blocks; the two clipped windows, 0 and 3, at what the proof data names
    on the part their transfers move and anything past it. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare ((cfg0.win 3).fill (cfg0.grid.coords t) d ((cfg0.win 3).cut (cfg0.grid.coords t) ((dats m 0 c).after 3 t)))))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  rw [before0_0 m c t d0, before0_1 m c t d1, before0_2 m c t d2, before0_3 m c t d3]
  iapply (sound_kernel (F := F) c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h0 : win0_0.cut (grid0.coords t) (sblk m c t) = iblk m c 0 t := win0_0.cut_fill _ _ _
  have hc : win0_0.cut (grid0.coords t) (win0_0.fill (grid0.coords t) d0 (iblk m c 0 t)) = win0_0.cut (grid0.coords t) (sblk m c t) := by
    rw [h0]; exact win0_0.cut_fill _ _ _
  have h3 := win0_3.fill_congr_cut (grid0.coords t)
    (cut_pay (F := F) (grid0.coords t) (iblk m c 2 t) _ _ (iblk m c 1 t) hc)
  isplitl [H0]
  · iexists d0
    have e0 : (cfg0.win 0).fill (cfg0.grid.coords t) d0 ((cfg0.win 0).cut (cfg0.grid.coords t) (sblk m c t))
        = win0_0.fill (grid0.coords t) d0 (iblk m c 0 t) := congrArg (win0_0.fill (grid0.coords t) d0) h0
    rw [e0]; try iexact H0
  isplitl [H1]; · iexact H1
  isplitl [H2]; · iexact H2
  · iexists (outOf (win0_0.fill (grid0.coords t) d0 (iblk m c 0 t)) (iblk m c 1 t) (iblk m c 2 t))
    have e3 : (cfg0.win 3).fill (cfg0.grid.coords t) (outOf (win0_0.fill (grid0.coords t) d0 (iblk m c 0 t)) (iblk m c 1 t) (iblk m c 2 t))
          ((cfg0.win 3).cut (cfg0.grid.coords t) (k0_pay1 (iblk m c 2 t) (sblk m c t) (iblk m c 1 t)))
        = outOf (win0_0.fill (grid0.coords t) d0 (iblk m c 0 t)) (iblk m c 1 t) (iblk m c 2 t) := by
      rw [outOf_eq]; exact h3
    rw [e3]; try iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

end Cert.Kernel.Outer

end
-- ==== Proof.KwLaunch.lean ====
/-
  The launch. The state array is handed to the region through two windows, the (16, 128) blocks and the
  (16, 1001) row blocks: both only read it, so the pipeline holds it by halves, one per window, and the
  two halves are the whole array again when the region returns. The other two arrays, the reciprocal
  norms and the result, are held whole. From the body obligation the library's launch theorem gives the
  run: every weakly fair execution of the program terminates without a fault, every array of the pipeline
  ends at what the write-backs computed, and every other buffer of the program is as the region found it;
  in particular the argument is unchanged.
-/
import proofs.«111341_j33603824124046_2_alg».proof.Proof.KwBody
import Idealize.ShloMosaic.Lib.Pipeline.Frame

set_option maxRecDepth 16384

noncomputable section

namespace Cert.Kernel.Outer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The buffers behind the windows' arrays are three: the state, the reciprocal norms, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_v0) ↦{fullShare} V m c main_v0) ∗ (((c : Thread nD τ).loc main_v3) ↦{fullShare} V m c main_v3)
          ∗ (((c : Thread nD τ).loc main_v4) ↦{fullShare} V m c main_v4)) := by
  unfold Pipeline.arrBufs
  exact bigSep_eq_bigSepL_of_eq [main_v0, main_v3, main_v4] (by decide) (by decide) _

/-- Those three buffers, whole, are the pipeline's arrays at entry: the state array split into the halves its two windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0, (arr_whole0 0).set_eq_univ, (arr_whole0 2).set_eq_univ, (arr_whole0 3).set_eq_univ]
  iintro ⟨H0, H3, H4⟩
  ihave H0' := (pointsTo_share (PosShare.mem_left_op_right fullShare)).1 $$ H0
  icases H0' with ⟨Ha, Hb⟩
  isplitl [Ha]; · iexact Ha
  isplitl [Hb]; · iexact Hb
  isplitl [H3]; · iexact H3
  iexact H4

set_option backward.isDefEq.respectTransparency.types false in
/-- The run: from any memory with zero counters every weakly fair execution of the program terminates, every array of
    the pipeline at what the write-backs computed and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := body_obligation m) (hne := block_pos0) (harr := arr_whole0) (hstage := stage_whole0) (howed := fun _ _ => rfl)
    (u₀ := u₀) (hu₀ := BI.Entails.refl _) (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      · iexact H)
    (hin := fun _ => by iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨fun w => (h c).1 w, (h c).2⟩)

/-- The frame: the program runs, and its argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
      ((h c).2 main_arg0 (Pipeline.mem_restRefs_of main_arg0 (by decide) (by decide))).trans (V_main_arg0 m c)) (run_main m ρ)

end Cert.Kernel.Outer

end
-- ==== Proof.KiData.lean ====
/-
  The kernel's launch data. The program pads the argument x : [64, 784] with zeros to a state of shape
  [64, 1001], takes each row's Euclidean norm n and its reciprocal inv = 1 / n on the host, and then runs
  one pipelined region over a grid of 4 x 8 points (b, i): window 0 is the (16, 128) block (b, i) of the
  state, window 1 the (16, 1001) block (b, 0) of the SAME state array, window 2 the (16, 1) block (b, 0)
  of inv, and window 3 the (16, 128, 1001) block (b, i, 0) of the result [64, 1001, 1001]. The last block
  along the axis of extent 1001 overhangs the array by 23 (1001 = 7 * 128 + 105), for window 0 (columns)
  and window 3 (its middle axis).

  This module states what the region finds in the arrays when it is entered (V: the contents after the
  host operations), that the program is those host operations followed by the region, each window's block
  at a grid point as read off V, and the proof data: what every staging buffer holds after the body at a
  point. The inputs' buffers hold their blocks (window 0's filled out past the array's end with a word
  nothing reads); the result's buffer holds the body's product of the three.
-/
import proofs.«111341_j33603824124046_2_alg».proof.Proof.Gen.KernelIdeal.Launch
import proofs.«111341_j33603824124046_2_alg».proof.Proof.Gen.KernelIdeal.Skeleton
import proofs.«111341_j33603824124046_2_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core c's buffers when the region is entered: the launch contents after the eleven host operations (the
    index constant; the padding; the squares, their row sums, the square root; the constant one and the
    quotient). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The program is its host operations, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window w's block at point t — its part inside the array — read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The word that fills out a block past the array's end; nothing reads it. -/
abbrev pad0 : Elt F .f32 := Scalar.ofBits .f32 0#32

/-- The state's (16, 128) block at point t as a whole staging buffer: the block inside the array, the filler past its end. -/
def sblk (c : Dev nD) (t : Fin cfg0.N) : S16x128.Idx → Elt F .f32 :=
  win0_0.fill (grid0.coords t) (fun _ => pad0) (iblk m c 0 t)

/-- The proof data of the pipeline on core c: the arrays as the region finds them; after the body at point t the
    three input buffers at their blocks and the result's buffer at the body's product of them; no invariant (the body
    keeps nothing between points); nothing owed; the state array, which two windows read, held by halves. -/
def dats (_ : Fin 1) (c : Dev nD) : Dat τ (Elt F) Unit ℕ (UR sig nD τ) ℕ cfg0 c where
  A w := V m c (Pipeline.arrRef spec0 w)
  after w t := match w with
    | ⟨0, _⟩ => sblk m c t
    | ⟨1, _⟩ => iblk m c 1 t
    | ⟨2, _⟩ => iblk m c 2 t
    | ⟨3, _⟩ => k0_pay1 (iblk m c 2 t) (sblk m c t) (iblk m c 1 t)
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = sblk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay1 (iblk m c 2 t) (sblk m c t) (iblk m c 1 t) := by dsimp only [dats]

end Cert.KernelIdeal.Outer

end
-- ==== Proof.KiPay.lean ====
/- The kernel body's arithmetic, read at an index, and its locality in the row block.

   The body loads a column `v0 : [16, 1]` of reciprocal norms and two blocks of the state, `v2 : [16, 128]` and
   `v6 : [16, 1001]`; it scales each block by the column broadcast along its rows, lays the first product out as
   `[16, 128, 1]` and the second as `[16, 1, 1001]`, broadcasts both to `[16, 128, 1001]` and multiplies. Every
   layout operation only forgets or repeats a coordinate, so entry `(p, r, q)` of the result is
   `(v2 (p, r) * v0 (p, 0)) * (v6 (p, q) * v0 (p, 0))`: it reads `v2` at `(p, r)` only. Hence the part of the
   result that a clipped write-back keeps depends on `v2` only through the part a like-clipped fetch filled. -/
import proofs.«111341_j33603824124046_2_alg».proof.Proof.Gen.KernelIdeal.Skeleton
import proofs.«111341_j33603824124046_2_alg».proof.Proof.Gen.KernelIdeal.Launch
import Idealize.ShloMosaic.Lib.ValueIdx
import Idealize.ShloMosaic.Lib.Pipeline.Value
import Idealize.ShloMosaic.Lib.ValueLayout
import proofs.«111341_j33603824124046_2_alg».proof.Proof.LibUnitAxisLayout

noncomputable section

namespace Cert.KernelIdeal.Outer

open Cert.KernelIdeal Cert.KernelIdeal.Gen Idealize.ShloMosaic Idealize.ShloMosaic.ValueIdx Cert.Lib.UnitAxisLayout

variable {F : FTy → Type} [FloatOps F]

/-! ## The body's product at an index -/

/-- THE BODY AT AN INDEX: entry `(p, r, q)` of the stored product is
    `(v2 (p, r) * v0 (p, 0)) * (v6 (p, q) * v0 (p, 0))`, at every float instance. -/
theorem pay_apply (v0 : Vec F S16x1 .f32) (v2 : Vec F S16x128 .f32) (v6 : Vec F S16x1001 .f32)
    (p : Fin 16) (r : Fin 128) (q : Fin 1001) :
    k0_pay1 v0 v2 v6 (ix3 p r q)
      = FloatOps.mulf (FloatOps.mulf (v2 (ix2 p r)) (v0 (ix2 p (0 : Fin 1))))
          (FloatOps.mulf (v6 (ix2 p q)) (v0 (ix2 p (0 : Fin 1)))) := by
  unfold k0_pay1
  simp only [shapeCast_self]
  refine congrArg₂ FloatOps.mulf ?_ ?_
  · refine (broadcastTo_ab1_abc_apply _ _ p r q).trans ?_
    refine (shapeCast_ab_ab1_apply _ _ p r (0 : Fin 1)).trans ?_
    exact congrArg (FloatOps.mulf (v2 (ix2 p r))) (broadcastTo_a1_ab_apply _ _ p r)
  · refine (broadcastTo_a1c_abc_apply _ _ p r q).trans ?_
    refine (shapeCast_ac_a1c_apply _ _ p (0 : Fin 1) q).trans ?_
    exact congrArg (FloatOps.mulf (v6 (ix2 p q))) (broadcastTo_a1_ab_apply _ _ p q)

/-! ## Locality in the row block -/

/-- The fetched block of the state and the written block of the product are cut alike on the batch axis … -/
theorem xsize_eq0 (i : grid0.Coords) : win0_0.xsize i 0 = win0_3.xsize i 0 := rfl

/-- … and on the row axis: both are block `i 1` of 128 rows clipped against the extent 1001. -/
theorem xsize_eq1 (i : grid0.Coords) : win0_0.xsize i 1 = win0_3.xsize i 1 := rfl

/-- ROW LOCALITY: the part of the product that the clipped write-back keeps depends on the first state block only
    through the part that the like-clipped fetch filled. -/
theorem cut_pay (i : grid0.Coords) (v0 : Vec F S16x1 .f32) (X X' : Vec F S16x128 .f32) (v6 : Vec F S16x1001 .f32)
    (h : win0_0.cut i X = win0_0.cut i X') :
    win0_3.cut i (k0_pay1 v0 X v6) = win0_3.cut i (k0_pay1 v0 X' v6) := by
  funext j
  have hp : (j 0).val < 16 := Nat.lt_of_lt_of_le (j 0).isLt (win0_3.xsize_le i 0)
  have hr : (j 1).val < 128 := Nat.lt_of_lt_of_le (j 1).isLt (win0_3.xsize_le i 1)
  have hq : (j 2).val < 1001 := Nat.lt_of_lt_of_le (j 2).isLt (win0_3.xsize_le i 2)
  have e3 : win0_3.xinj i j = ix3 (⟨(j 0).val, hp⟩ : Fin 16) (⟨(j 1).val, hr⟩ : Fin 128) (⟨(j 2).val, hq⟩ : Fin 1001) :=
    funext fun a => Fin.ext (by match a with | ⟨0, _⟩ => rfl | ⟨1, _⟩ => rfl | ⟨2, _⟩ => rfl)
  show k0_pay1 v0 X v6 (win0_3.xinj i j) = k0_pay1 v0 X' v6 (win0_3.xinj i j)
  rw [e3, pay_apply, pay_apply]
  -- the index of the fetched part with the same batch and row coordinates
  let j0 : (win0_0.xblock i).Idx := fun a => match a with
    | ⟨0, _⟩ => ⟨(j 0).val, Nat.lt_of_lt_of_eq (j 0).isLt (xsize_eq0 i).symm⟩
    | ⟨1, _⟩ => ⟨(j 1).val, Nat.lt_of_lt_of_eq (j 1).isLt (xsize_eq1 i).symm⟩
  have e2 : win0_0.xinj i j0 = ix2 (⟨(j 0).val, hp⟩ : Fin 16) (⟨(j 1).val, hr⟩ : Fin 128) :=
    funext fun a => Fin.ext (by match a with | ⟨0, _⟩ => rfl | ⟨1, _⟩ => rfl)
  have hX : X (ix2 (⟨(j 0).val, hp⟩ : Fin 16) (⟨(j 1).val, hr⟩ : Fin 128))
      = X' (ix2 (⟨(j 0).val, hp⟩ : Fin 16) (⟨(j 1).val, hr⟩ : Fin 128)) := by
    have := congrFun h j0
    rw [← e2]; exact this
  rw [hX]

end Cert.KernelIdeal.Outer

end
-- ==== Proof.KiBody.lean ====
/-
  The body of the region at one grid point. It loads the three input buffers whole, multiplies the state's
  (16, 128) block and its (16, 1001) row block each by the column of reciprocal norms, forms their outer
  product per row, and stores it over the whole result buffer. So the result buffer ends at one pure
  function of the three input buffers, whatever it held.

  Window 0's buffer is handed to the body holding the state's block on the columns inside the array and
  words nothing names past the array's end (the last block along that axis overhangs it). Entry (p, r, q)
  of the product reads the (16, 128) buffer at (p, r) only, and the write-back of the result cuts the same
  rows r off as the fetch cut columns, so the part of the result that is written back does not depend on
  those words: that is all the obligation of a clipped window asks.
-/
import proofs.«111341_j33603824124046_2_alg».proof.Proof.KiData
import proofs.«111341_j33603824124046_2_alg».proof.Proof.KiPay
import Idealize.ShloMosaic.Lib.Pipeline.Value

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each the whole of its buffer -/

abbrev rInv : Rect S16x1 := Rect.unit (s := S16x1) ![0, 0] S16x1.size inb_S16x1_S16x1_0_0
abbrev rSi : Rect S16x128 := Rect.unit (s := S16x128) ![0, 0] S16x128.size inb_S16x128_S16x128_0_0
abbrev rSj : Rect S16x1001 := Rect.unit (s := S16x1001) ![0, 0] S16x1001.size inb_S16x1001_S16x1001_0_0
abbrev rOut : Rect S16x128x1001 := Rect.unit (s := S16x128x1001) ![0, 0, 0] S16x128x1001.size inb_S16x128x1001_S16x128x1001_0_0_0

/-- The result buffer after the body, from the input buffers: its one store, over what the three loads read. -/
def outOf (x0 : Vec F S16x128 .f32) (x1 : Vec F S16x1001 .f32) (x2 : Vec F S16x1 .f32) : Vec F S16x128x1001 .f32 :=
  View.canon [⟨rOut, k0_pay1 (View.ld x2 rInv) (View.ld x0 rSi) (View.ld x1 rSj)⟩]

/-- The one store covers the buffer. -/
theorem coverOut (p0 : Vec F S16x128x1001 .f32) (y : S16x128x1001.Idx) :
    ∃ pc ∈ ([⟨rOut, p0⟩] : List (View.Piece (Elt F) S16x128x1001 .f32)), y ∈ pc.1.set :=
  View.cover_of_tiled [⟨rOut, p0⟩] S16x128x1001.size (by rfl) y

/-- Every access is at offset zero and of the buffer's own size, so the result is the product of the buffers themselves. -/
theorem outOf_eq (x0 : Vec F S16x128 .f32) (x1 : Vec F S16x1001 .f32) (x2 : Vec F S16x1 .f32) :
    outOf x0 x1 x2 = k0_pay1 x2 x0 x1 := by
  have hz2 : (![0, 0] : Fin 2 → Nat) = fun _ => 0 := funext fun a => by fin_cases a <;> rfl
  have hz3 : (![0, 0, 0] : Fin 3 → Nat) = fun _ => 0 := funext fun a => by fin_cases a <;> rfl
  unfold outOf
  rw [View.canon_unit_zero hz3]
  simp only [View.ld_unit_zero (S := S16x1) hz2, View.ld_unit_zero (S := S16x128) hz2, View.ld_unit_zero (S := S16x1001) hz2]

/-! ## The body's triple -/

set_option maxHeartbeats 1000000 in
/-- The body on whole staging memrefs, the inputs' at contents x0, x1, x2 and the result's at anything, runs to the
    continuation holding the inputs' as they were and the result's at their product. -/
theorem sound_kernel (c : Dev nD) (E : Set ℕ) (i : grid0.Coords)
    (arg2 : Memref sig .tc .vmem S16x128 .f32) (harg2 : arg2.IsWhole) (arg3 : Memref sig .tc .vmem S16x1001 .f32) (harg3 : arg3.IsWhole)
    (arg4 : Memref sig .tc .vmem S16x1 .f32) (harg4 : arg4.IsWhole) (arg5 : Memref sig .tc .vmem S16x128x1001 .f32) (harg5 : arg5.IsWhole)
    (x0 : Vec F S16x128 .f32) (x1 : Vec F S16x1001 .f32) (x2 : Vec F S16x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outOf x0 x1 x2)) -∗ K ⟨⟩))
      ⊢ wp frame (wpE (defs₀ (F := F)) Variants.none c none) E (cc0__outer_kernel i arg2 harg2 arg3 harg3 arg4 harg4 arg5 harg5) K := by
  simp only [cc0__outer_kernel_eq_skeleton]; unfold cc0__outer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## What the body finds in each buffer -/

/-- Window 0 is fetched at every point: its buffer holds the state's block on the columns inside the array, and d elsewhere. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]; try rfl

/-- Windows 1 and 2 are fetched where the batch coordinate moves; in between their block index stands still,
    and the body leaves them as it found them: at every point they hold their blocks. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- The result's window is written back at every point: its buffer is fresh each time. -/
theorem before0_3 (c : Dev nD) (t : Fin cfg0.N) (d) : (dats m 0 c).before 3 t d = d := by
  refine (dats m 0 c).before_out_reset 3 rfl t ?_ d
  by_cases h0 : t.val = 0
  · exact .inl h0
  · exact .inr ⟨h0, flush0_3 _⟩

/-! ## The body obligation -/

/-- What the body is called with at point t: the invariant, what the core owes, and each window's current buffer at what
    the pipeline left in it; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: windows 1 and 2 at their blocks; the two clipped windows, 0 and 3, at what the proof data names
    on the part their transfers move and anything past it. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare ((cfg0.win 3).fill (cfg0.grid.coords t) d ((cfg0.win 3).cut (cfg0.grid.coords t) ((dats m 0 c).after 3 t)))))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  rw [before0_0 m c t d0, before0_1 m c t d1, before0_2 m c t d2, before0_3 m c t d3]
  iapply (sound_kernel (F := F) c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h0 : win0_0.cut (grid0.coords t) (sblk m c t) = iblk m c 0 t := win0_0.cut_fill _ _ _
  have hc : win0_0.cut (grid0.coords t) (win0_0.fill (grid0.coords t) d0 (iblk m c 0 t)) = win0_0.cut (grid0.coords t) (sblk m c t) := by
    rw [h0]; exact win0_0.cut_fill _ _ _
  have h3 := win0_3.fill_congr_cut (grid0.coords t)
    (cut_pay (F := F) (grid0.coords t) (iblk m c 2 t) _ _ (iblk m c 1 t) hc)
  isplitl [H0]
  · iexists d0
    have e0 : (cfg0.win 0).fill (cfg0.grid.coords t) d0 ((cfg0.win 0).cut (cfg0.grid.coords t) (sblk m c t))
        = win0_0.fill (grid0.coords t) d0 (iblk m c 0 t) := congrArg (win0_0.fill (grid0.coords t) d0) h0
    rw [e0]; try iexact H0
  isplitl [H1]; · iexact H1
  isplitl [H2]; · iexact H2
  · iexists (outOf (win0_0.fill (grid0.coords t) d0 (iblk m c 0 t)) (iblk m c 1 t) (iblk m c 2 t))
    have e3 : (cfg0.win 3).fill (cfg0.grid.coords t) (outOf (win0_0.fill (grid0.coords t) d0 (iblk m c 0 t)) (iblk m c 1 t) (iblk m c 2 t))
          ((cfg0.win 3).cut (cfg0.grid.coords t) (k0_pay1 (iblk m c 2 t) (sblk m c t) (iblk m c 1 t)))
        = outOf (win0_0.fill (grid0.coords t) d0 (iblk m c 0 t)) (iblk m c 1 t) (iblk m c 2 t) := by
      rw [outOf_eq]; exact h3
    rw [e3]; try iexact H3

/-- The library's body obligation, at every point. -/
theorem body_obligation (c : Dev nD) : BodyObligationLoose (dats (F := F) m 0 c) (defs₀ (F := F)) Variants.none () Set.univ := fun t => by
  rw [bigSep_W0, bigSep_W0]
  exact sound_body m c t

end Cert.KernelIdeal.Outer

end
-- ==== Proof.KiLaunch.lean ====
/-
  The launch. The state array is handed to the region through two windows, the (16, 128) blocks and the
  (16, 1001) row blocks: both only read it, so the pipeline holds it by halves, one per window, and the
  two halves are the whole array again when the region returns. The other two arrays, the reciprocal
  norms and the result, are held whole. From the body obligation the library's launch theorem gives the
  run: every weakly fair execution of the program terminates without a fault, every array of the pipeline
  ends at what the write-backs computed, and every other buffer of the program is as the region found it;
  in particular the argument is unchanged.
-/
import proofs.«111341_j33603824124046_2_alg».proof.Proof.KiBody
import Idealize.ShloMosaic.Lib.Pipeline.Frame

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The buffers behind the windows' arrays are three: the state, the reciprocal norms, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_v0) ↦{fullShare} V m c main_v0) ∗ (((c : Thread nD τ).loc main_v3) ↦{fullShare} V m c main_v3)
          ∗ (((c : Thread nD τ).loc main_v4) ↦{fullShare} V m c main_v4)) := by
  unfold Pipeline.arrBufs
  exact bigSep_eq_bigSepL_of_eq [main_v0, main_v3, main_v4] (by decide) (by decide) _

/-- Those three buffers, whole, are the pipeline's arrays at entry: the state array split into the halves its two windows hold. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0, (arr_whole0 0).set_eq_univ, (arr_whole0 2).set_eq_univ, (arr_whole0 3).set_eq_univ]
  iintro ⟨H0, H3, H4⟩
  ihave H0' := (pointsTo_share (PosShare.mem_left_op_right fullShare)).1 $$ H0
  icases H0' with ⟨Ha, Hb⟩
  isplitl [Ha]; · iexact Ha
  isplitl [Hb]; · iexact Hb
  isplitl [H3]; · iexact H3
  iexact H4

set_option backward.isDefEq.respectTransparency.types false in
/-- The run: from any memory with zero counters every weakly fair execution of the program terminates, every array of
    the pipeline at what the write-backs computed and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := body_obligation m) (hne := block_pos0) (harr := arr_whole0) (hstage := stage_whole0) (howed := fun _ _ => rfl)
    (u₀ := u₀) (hu₀ := BI.Entails.refl _) (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr
      · iempintro
      · iexact H)
    (hin := fun _ => by iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨fun w => (h c).1 w, (h c).2⟩)

/-- The frame: the program runs, and its argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
      ((h c).2 main_arg0 (Pipeline.mem_restRefs_of main_arg0 (by decide) (by decide))).trans (V_main_arg0 m c)) (run_main m ρ)

end Cert.KernelIdeal.Outer

end
-- ==== Proof.KiHost.lean ====
/-
  What the region finds in its two input arrays, as functions of the argument x: the state is x padded
  with zeros to 1001 columns; the norm of a row is the square root of the sum of its squares; the third
  array holds 1 / norm, row by row.
-/
import proofs.«111341_j33603824124046_2_alg».proof.Proof.KiData
import Idealize.ShloMosaic.Lib.StableHlo.Run
import Idealize.ShloMosaic.Lib.ValueIdx

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The argument padded with zeros on the right, to 1001 columns. -/
def stateK (x : FVec F S64x784 .f32) : FVec F S64x1001 .f32 :=
  pad S64x1001 ![0, 0] ![0, 217] ![0, 0] x (sitofp .f32 (constantI S_ 32 0#32)) pads_S64x784_S64x1001_000_02170 h_S_

/-- Each row's Euclidean norm, as a column. -/
def normK (x : FVec F S64x784 .f32) : FVec F S64x1 .f32 :=
  Host.sqrt (broadcastInDim S64x1 ![0] bcast_S64_S64x1_0
    (Host.reduceAdd (mulf (stateK x) (stateK x)) (constant S_ .f32 0x00000000#32) reducesTo_S64x1001_S64_d1 h_S_))

/-- One over each row's norm. -/
def invK (x : FVec F S64x784 .f32) : FVec F S64x1 .f32 :=
  Host.divf (broadcastInDim S64x1 ![] bcast_S_S64x1 (constant S_ .f32 0x3F800000#32)) (normK x)

/-- The result, entry by entry, from the state array and the column of reciprocal norms:
    entry (b, i, j) is (state[b, i] * inv[b]) * (state[b, j] * inv[b]). -/
def G (st : S64x1001.Idx → Elt F .f32) (inv : S64x1.Idx → Elt F .f32) : S64x1001x1001.Idx → Elt F .f32 :=
  fun i => FloatOps.mulf (FloatOps.mulf (st (ValueIdx.ix2 (i 0) (i 1))) (inv (ValueIdx.ix2 (i 0) (0 : Fin 1))))
    (FloatOps.mulf (st (ValueIdx.ix2 (i 0) (i 2))) (inv (ValueIdx.ix2 (i 0) (0 : Fin 1))))

/-- The region finds the state in the array windows 0 and 1 read, -/
theorem V_main_v0_eq (c : Dev nD) :
    (V m c main_v0 : S64x1001.Idx → Elt F .f32) = stateK (m ((c : Thread nD τ).loc main_arg0)) := by
  dsimp only [V]
  simp only [hostOps0, hostOps0_1, hostOps0_2, hostOps0_3, List.flatten_cons, List.flatten_nil, List.append_nil, List.cons_append, List.nil_append]
  after_results
  rfl

/-- and the reciprocal norms in window 2's. -/
theorem V_main_v3_eq (c : Dev nD) :
    (V m c main_v3 : S64x1.Idx → Elt F .f32) = invK (m ((c : Thread nD τ).loc main_arg0)) := by
  dsimp only [V]
  simp only [hostOps0, hostOps0_1, hostOps0_2, hostOps0_3, List.flatten_cons, List.flatten_nil, List.append_nil, List.cons_append, List.nil_append]
  after_results
  rfl

end Cert.KernelIdeal.Outer

end
-- ==== Proof.KiIdx.lean ====
/-
  The printed index maps, decided once over the 32 grid points: at point t = (b, i) the three input
  windows sit at block row b, window 0 also at block column i, and the result's window at (b, i, 0); the
  parts the transfers move are whole except along the axis of extent 1001, where block 7 keeps 105 of
  its 128 (1001 = 7 * 128 + 105), alike for window 0's columns and the result's middle axis. Every pair
  (b, i) is some point's.
-/
import proofs.«111341_j33603824124046_2_alg».proof.Proof.KiData

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option Elab.async false

theorem idx_facts : ∀ t : Fin cfg0.N,
    win0_0.index t (0 : Fin 2) = win0_3.index t (0 : Fin 3) ∧ win0_0.index t (1 : Fin 2) = win0_3.index t (1 : Fin 3)
    ∧ win0_1.index t (0 : Fin 2) = win0_3.index t (0 : Fin 3) ∧ win0_1.index t (1 : Fin 2) = 0
    ∧ win0_2.index t (0 : Fin 2) = win0_3.index t (0 : Fin 3) ∧ win0_2.index t (1 : Fin 2) = 0
    ∧ win0_3.index t (2 : Fin 3) = 0 ∧ win0_3.index t (0 : Fin 3) ≤ 3 ∧ win0_3.index t (1 : Fin 3) ≤ 7 :=
  (by decide +kernel : ∀ t : Fin grid0.N, _)

theorem xsize_facts : ∀ t : Fin cfg0.N,
    win0_3.xsize (grid0.coords t) (0 : Fin 3) = 16 ∧ win0_3.xsize (grid0.coords t) (2 : Fin 3) = 1001
    ∧ win0_3.xsize (grid0.coords t) (1 : Fin 3) = (if win0_3.index t (1 : Fin 3) = 7 then 105 else 128)
    ∧ win0_0.xsize (grid0.coords t) (0 : Fin 2) = 16
    ∧ win0_0.xsize (grid0.coords t) (1 : Fin 2) = win0_3.xsize (grid0.coords t) (1 : Fin 3) :=
  (by decide +kernel : ∀ t : Fin grid0.N, _)

theorem idx_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

end Cert.KernelIdeal.Outer

end
-- ==== Proof.KiCover.lean ====
/-
  The result array is covered by the blocks the grid points write back. Point t writes the rectangle of the
  result whose offsets are the block index times the block sizes (16, 128, 1001) and whose extents are the
  moved sizes: 16 on the batch axis, 1001 on the last axis, and on the middle axis 128 except for block 7,
  which keeps the 105 rows inside the extent 1001 = 7 * 128 + 105. An index (b, r, q) of the result lies in
  the block of the point with block row b / 16 and block column r / 128.
-/
import proofs.«111341_j33603824124046_2_alg».proof.Proof.KiIdx
import proofs.«111341_j33603824124046_2_alg».proof.Proof.Gen.KernelIdeal.Points

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

set_option Elab.async false

/-- An index of the result array is in point `t`'s block iff on every axis it lies from the block's offset up to
    the offset plus the moved size. -/
theorem mem_blk3 (t : Fin cfg0.N) (i : S64x1001x1001.Idx) :
    i ∈ ((cfg0.win 3).blk t).view.set ↔ ∀ a : Fin 3, win0_3.index t a * S16x128x1001.size a ≤ (i a).val
      ∧ (i a).val < win0_3.index t a * S16x128x1001.size a + win0_3.xsize (grid0.coords t) a := by
  show i ∈ ((View.whole main_v4).slice (win0_3.rect t)).set ↔ _
  rw [View.set_slice_whole, Rect.mem_set_unit]
  exact Iff.rfl

/-- EVERY INDEX IS COVERED: index `(b, r, q)` of the result lies in the block written back at the point whose block
    row is `b / 16` and whose block column is `r / 128`. -/
theorem cover3 (i : S64x1001x1001.Idx) :
    ∃ t : Fin cfg0.N, (cfg0.win 3).flush t = true ∧ i ∈ ((cfg0.win 3).blk t).view.set := by
  have hi0 : (i 0).val < 64 := (i 0).isLt
  have hi1 : (i 1).val < 1001 := (i 1).isLt
  have hi2 : (i 2).val < 1001 := (i 2).isLt
  obtain ⟨t, ht⟩ := idx_onto ⟨(i 0).val / 16, by omega⟩ ⟨(i 1).val / 128, by omega⟩
  have q0 : win0_3.index t (0 : Fin 3) = (i 0).val / 16 := congrFun ht 0
  have q1 : win0_3.index t (1 : Fin 3) = (i 1).val / 128 := congrFun ht 1
  have q2 : win0_3.index t (2 : Fin 3) = 0 := congrFun ht 2
  obtain ⟨x0, x2, x1, -, -⟩ := xsize_facts t
  refine ⟨t, flush0_3 t, ?_⟩
  rw [mem_blk3]
  intro a
  match a with
  | ⟨0, _⟩ =>
    show win0_3.index t (0 : Fin 3) * 16 ≤ (i 0).val
      ∧ (i 0).val < win0_3.index t (0 : Fin 3) * 16 + win0_3.xsize (grid0.coords t) (0 : Fin 3)
    rw [x0]; omega
  | ⟨1, _⟩ =>
    show win0_3.index t (1 : Fin 3) * 128 ≤ (i 1).val
      ∧ (i 1).val < win0_3.index t (1 : Fin 3) * 128 + win0_3.xsize (grid0.coords t) (1 : Fin 3)
    rw [x1]
    split <;> omega
  | ⟨2, _⟩ =>
    show win0_3.index t (2 : Fin 3) * 1001 ≤ (i 2).val
      ∧ (i 2).val < win0_3.index t (2 : Fin 3) * 1001 + win0_3.xsize (grid0.coords t) (2 : Fin 3)
    rw [x2]; omega

end Cert.KernelIdeal.Outer

end
-- ==== Proof.KiValue.lean ====
/-
  The result array after the run. Entry (b, i, j) of the result is

      (state[b, i] * inv[b]) * (state[b, j] * inv[b]),

  one function G of the two arrays the region reads. What grid point t writes back is its block of G:
  entry (p, r, q) of the body's product reads the state's (16, 128) block at (p, r), its (16, 1001) row
  block at (p, q) and the reciprocal norm of row p, and the three blocks sit where the result's block
  sits (same block row; window 0 also the same block column, the other two at column 0). The blocks of
  the 4 x 8 points, the last one along the middle axis cut to the 105 rows inside the array, cover every
  index of the result, so the array ends holding G whole.
-/
import proofs.«111341_j33603824124046_2_alg».proof.Proof.KiLaunch
import proofs.«111341_j33603824124046_2_alg».proof.Proof.KiHost
import proofs.«111341_j33603824124046_2_alg».proof.Proof.KiIdx
import proofs.«111341_j33603824124046_2_alg».proof.Proof.KiPay
import proofs.«111341_j33603824124046_2_alg».proof.Proof.KiCover

set_option maxRecDepth 16384

noncomputable section

namespace Cert.KernelIdeal.Outer

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point t writes back is block t of G of the arrays as the region finds them. -/
theorem flushed3_eq (c : Dev nD) (t : Fin cfg0.N) :
    (dats m 0 c).flushed 3 t = ((cfg0.win 3).blk t).view.read (Elt F) (G (V m c main_v0) (V m c main_v3)) := by
  show (cfg0.win 3).cut (grid0.coords t) ((dats m 0 c).after 3 t) = _
  rw [after0_3]
  obtain ⟨e00, e01, e10, e11, e20, e21, e32, b0, b1⟩ := idx_facts t
  obtain ⟨x0, x2, x1, y0, y1⟩ := xsize_facts t
  funext j
  have hj0 : (j 0).val < 16 := by have := (j 0).isLt; rw [← x0]; exact this
  have hj1 : (j 1).val < win0_3.xsize (grid0.coords t) (1 : Fin 3) := (j 1).isLt
  have hj1' : (j 1).val < 128 := lt_of_lt_of_le hj1 (win0_3.xsize_le _ _)
  have hj2 : (j 2).val < 1001 := by have := (j 2).isLt; rw [← x2]; exact this
  have hy0 : (j 0).val < win0_0.xsize (grid0.coords t) (0 : Fin 2) := by rw [y0]; exact hj0
  have hy1 : (j 1).val < win0_0.xsize (grid0.coords t) (1 : Fin 2) := by rw [y1]; exact hj1
  have ex : win0_3.xinj (grid0.coords t) j = ix3 (⟨(j 0).val, hj0⟩ : Fin 16) (⟨(j 1).val, hj1'⟩ : Fin 128) (⟨(j 2).val, hj2⟩ : Fin 1001) := by
    funext a; match a with | ⟨0, _⟩ => rfl | ⟨1, _⟩ => rfl | ⟨2, _⟩ => rfl
  show k0_pay1 (iblk m c 2 t) (sblk m c t) (iblk m c 1 t) (win0_3.xinj (grid0.coords t) j)
    = G (V m c main_v0) (V m c main_v3) (((cfg0.win 3).blk t).view.emb j)
  rw [ex, pay_apply]
  -- the state's (16, 128) block at (p, r): inside the part the fetch filled, so the array's entry under the result's block
  have hA : sblk m c t (ix2 (⟨(j 0).val, hj0⟩ : Fin 16) (⟨(j 1).val, hj1'⟩ : Fin 128))
      = V m c main_v0 (ix2 ((((cfg0.win 3).blk t).view.emb j) 0) ((((cfg0.win 3).blk t).view.emb j) 1)) := by
    have exj : (ix2 (⟨(j 0).val, hj0⟩ : Fin 16) (⟨(j 1).val, hj1'⟩ : Fin 128) : S16x128.Idx)
        = win0_0.xinj (grid0.coords t) (fun a => match a with | ⟨0, _⟩ => ⟨(j 0).val, hy0⟩ | ⟨1, _⟩ => ⟨(j 1).val, hy1⟩) := by
      funext a; match a with | ⟨0, _⟩ => rfl | ⟨1, _⟩ => rfl
    unfold sblk
    rw [exj, win0_0.fill_xinj]
    show V m c main_v0 (((cfg0.win 0).blk t).view.emb _) = _
    refine congrArg (V m c main_v0) (funext fun a => Fin.ext ?_)
    match a with
    | ⟨0, _⟩ => show win0_0.index t (0 : Fin 2) * 16 + 1 * (j 0).val = win0_3.index t (0 : Fin 3) * 16 + 1 * (j 0).val; omega
    | ⟨1, _⟩ => show win0_0.index t (1 : Fin 2) * 128 + 1 * (j 1).val = win0_3.index t (1 : Fin 3) * 128 + 1 * (j 1).val; omega
  -- the reciprocal norm of row p
  have hB : iblk m c 2 t (ix2 (⟨(j 0).val, hj0⟩ : Fin 16) (0 : Fin 1))
      = V m c main_v3 (ix2 ((((cfg0.win 3).blk t).view.emb j) 0) (0 : Fin 1)) := by
    show V m c main_v3 (((cfg0.win 2).blk t).view.emb (ix2 (⟨(j 0).val, hj0⟩ : Fin 16) (0 : Fin 1))) = _
    refine congrArg (V m c main_v3) (funext fun a => Fin.ext ?_)
    match a with
    | ⟨0, _⟩ => show win0_2.index t (0 : Fin 2) * 16 + 1 * (j 0).val = win0_3.index t (0 : Fin 3) * 16 + 1 * (j 0).val; omega
    | ⟨1, _⟩ => show win0_2.index t (1 : Fin 2) * 1 + 1 * 0 = 0; omega
  -- the state's row block at (p, q)
  have hC : iblk m c 1 t (ix2 (⟨(j 0).val, hj0⟩ : Fin 16) (⟨(j 2).val, hj2⟩ : Fin 1001))
      = V m c main_v0 (ix2 ((((cfg0.win 3).blk t).view.emb j) 0) ((((cfg0.win 3).blk t).view.emb j) 2)) := by
    show V m c main_v0 (((cfg0.win 1).blk t).view.emb (ix2 (⟨(j 0).val, hj0⟩ : Fin 16) (⟨(j 2).val, hj2⟩ : Fin 1001))) = _
    refine congrArg (V m c main_v0) (funext fun a => Fin.ext ?_)
    match a with
    | ⟨0, _⟩ => show win0_1.index t (0 : Fin 2) * 16 + 1 * (j 0).val = win0_3.index t (0 : Fin 3) * 16 + 1 * (j 0).val; omega
    | ⟨1, _⟩ => show win0_1.index t (1 : Fin 2) * 1001 + 1 * (j 2).val = win0_3.index t (2 : Fin 3) * 1001 + 1 * (j 2).val; omega
  rw [hA, hB, hC]
  rfl

/-- The blocks cover the result, so it ends holding G whole. -/
theorem final3 (c : Dev nD) : (dats m 0 c).arrAt 3 cfg0.N = G (V m c main_v0) (V m c main_v3) :=
  (dats m 0 c).arrAt_eq_of_cover 3 _ (fun t _ => flushed3_eq m c t) cover3

/-- The run, read: the result array ends at G of the padded argument and its reciprocal row norms, and the argument as launched. -/
theorem run_value : θ_run defs (onTc (τ := τ) (main (F := F))) ⟨m, fun _ => 0, ρ⟩ (fun r => ∀ c : Dev nD,
      r.2.mem ((c.tc : Thread nD τ).loc main_v4)
        = G (stateK (m ((c.tc : Thread nD τ).loc main_arg0))) (invK (m ((c.tc : Thread nD τ).loc main_arg0)))
      ∧ r.2.mem ((c.tc : Thread nD τ).loc main_arg0) = m ((c.tc : Thread nD τ).loc main_arg0)) :=
  (θ_run defs _ _).mono (fun r h c =>
      ⟨((h c).1 3).trans ((final3 m c).trans (by rw [V_main_v0_eq, V_main_v3_eq])),
        ((h c).2 main_arg0 (Pipeline.mem_restRefs_of main_arg0 (by decide) (by decide))).trans (V_main_arg0 m c)⟩) (run_main m ρ)

end Cert.KernelIdeal.Outer

end
-- ==== Proof.OuterSpec.lean ====
/- The normalized outer product, index by index, in its two arrangements.

   From a state `st : [64, 1001]` and a column of norms `n : [64]`, one side divides each state entry by the
   row's norm and multiplies the two quotients; the other side first forms the reciprocal `1 / n b` and
   multiplies each state entry by it. At the ideal instance (floats are extended reals, and a quotient is
   `Ideal.div`: the product with the inverse off zero, a signed infinity or the junk value at zero) the two
   arrangements agree at every row whose norm is not zero, with no finiteness assumption: off zero,
   `Ideal.div s n = s * n⁻¹` and `Ideal.div 1 n = 1 * n⁻¹ = n⁻¹`. At a zero norm they differ
   (`Ideal.div s 0` is an infinity of `s`'s sign, `s * Ideal.div 1 0 = s * ⊤`), which is why the law takes
   the hypothesis. -/
import Idealize.ShloMosaic.PureOps.Ideal
import Idealize.ShloMosaic.Lib.ValueIdx
import Idealize.ShloMosaic.Lib.IdealHost

noncomputable section

namespace Cert.OuterRef

open Idealize.ShloMosaic

/-- Quotient first: `(st b i / n b) * (st b j / n b)`. -/
def refOut (st : Fin 64 → Fin 1001 → EReal) (n : Fin 64 → EReal) (b : Fin 64) (i j : Fin 1001) : EReal :=
  Ideal.div (st b i) (n b) * Ideal.div (st b j) (n b)

/-- Reciprocal first: `(st b i * (1 / n b)) * (st b j * (1 / n b))`. -/
def kerOut (st : Fin 64 → Fin 1001 → EReal) (n : Fin 64 → EReal) (b : Fin 64) (i j : Fin 1001) : EReal :=
  (st b i * Ideal.div 1 (n b)) * (st b j * Ideal.div 1 (n b))

/-- Off zero the ideal quotient is the product with the inverse. -/
theorem div_of_ne_zero {x y : EReal} (h : y ≠ 0) : Ideal.div x y = x * y⁻¹ := by
  rw [Ideal.div, if_neg h]

/-- Off zero the ideal reciprocal is the inverse. -/
theorem one_div_of_ne_zero {y : EReal} (h : y ≠ 0) : Ideal.div 1 y = y⁻¹ := by
  rw [div_of_ne_zero h, one_mul]

/-- Multiplying by the reciprocal is dividing, at a divisor that is not zero. -/
theorem mul_one_div_of_ne_zero {x y : EReal} (h : y ≠ 0) : x * Ideal.div 1 y = Ideal.div x y := by
  rw [one_div_of_ne_zero h, div_of_ne_zero h]

/-- THE LAW: at a row whose norm is not zero the two arrangements are one value. -/
theorem kerOut_eq_refOut (st : Fin 64 → Fin 1001 → EReal) (n : Fin 64 → EReal) (b : Fin 64) (i j : Fin 1001)
    (h : n b ≠ 0) : kerOut st n b i j = refOut st n b i j := by
  unfold kerOut refOut
  rw [mul_one_div_of_ne_zero h, mul_one_div_of_ne_zero h]

/-- The f32 word `0x3F800000` denotes the extended real one. -/
theorem ofBits_one : Ideal.ofBits .f32 0x3F800000#32 = (1 : EReal) := Ideal.ofBits_one_f32

/-- The f32 word `0x00000000` denotes the extended real zero. -/
theorem ofBits_zero : Ideal.ofBits .f32 0x00000000#32 = (0 : EReal) := Ideal.ofBits_zero_f32

end Cert.OuterRef

end
-- ==== Proof.OuterReference.lean ====
/- The reference program's result, read at an index, is the quotient-first normalized outer product.

   The reference pads its argument `x : [64, 784]` with zeros to the state `[64, 1001]`, takes each row's norm
   (the square root of the row's sum of squares, kept as a column `[64, 1]`), divides the state by the norm
   broadcast along the row, and multiplies the quotient laid out as `[64, 1001, 1]` by the same quotient laid out
   as `[64, 1, 1001]`, both broadcast to `[64, 1001, 1001]`. Read at `(b, i, j)` every broadcast only forgets or
   repeats a coordinate, so the element is `(state b i / norm b) * (state b j / norm b)`. -/
import proofs.«111341_j33603824124046_2_alg».proof.Proof.Gen.ReferenceIdeal.Read
import proofs.«111341_j33603824124046_2_alg».proof.Proof.OuterSpec
import Idealize.ShloMosaic.Lib.ValueIdx
import Idealize.ShloMosaic.Lib.Pipeline.Value
import Idealize.ShloMosaic.PureOps.Ideal.Laws

noncomputable section

namespace Cert.OuterRef

open Cert.ReferenceIdeal Cert.ReferenceIdeal.Gen Idealize.ShloMosaic Idealize.ShloMosaic.ValueIdx

/-- The state: the argument padded on the right of each row with 217 copies of the integer zero converted to a
    float. -/
def stateOf (x : FVec Ideal S64x784 .f32) : FVec Ideal S64x1001 .f32 :=
  pad S64x1001 ![0, 0] ![0, 217] ![0, 0] x (sitofp (F := Ideal) .f32 (constantI S_ 32 0#32))
    pads_S64x784_S64x1001_000_02170 h_S_

/-- The norms: the square root of each row's sum of squares of the state, as a column. -/
def normOf (x : FVec Ideal S64x784 .f32) : FVec Ideal S64x1 .f32 :=
  Host.sqrt (F := Ideal) (broadcastInDim S64x1 ![0] bcast_S64_S64x1_0
    (Host.reduceAdd (F := Ideal) (mulf (stateOf x) (stateOf x)) (constant (F := Ideal) S_ .f32 0x00000000#32)
      reducesTo_S64x1001_S64_d1 h_S_))

/-- The reference's padded value is the state. -/
theorem val_main_v0_eq (x : FVec Ideal S64x784 .f32) : Read.val_main_v0 (F := Ideal) x = stateOf x := rfl

/-- The reference's norm column is the norms. -/
theorem val_main_v1_eq (x : FVec Ideal S64x784 .f32) : Read.val_main_v1 (F := Ideal) x = normOf x := rfl

/-- Forgetting the trailing unit axis and then the repeated last axis of `(b, i, j)` leaves `(b, i)`. -/
theorem idx_left (b : Fin 64) (i j : Fin 1001) :
    Read.idx_main_v4 (Read.idx_main_v6 (ix3 b i j)) = ix2 b i :=
  funext fun a => Fin.ext (by match a with | ⟨0, _⟩ => rfl | ⟨1, _⟩ => rfl)

/-- Forgetting the middle unit axis and then the repeated middle axis of `(b, i, j)` leaves `(b, j)`. -/
theorem idx_right (b : Fin 64) (i j : Fin 1001) :
    Read.idx_main_v5 (Read.idx_main_v7 (ix3 b i j)) = ix2 b j :=
  funext fun a => Fin.ext (by match a with | ⟨0, _⟩ => rfl | ⟨1, _⟩ => rfl)

/-- The norm broadcast along a row is read at the row's one column entry. -/
theorem idx_norm (b : Fin 64) (k : Fin 1001) :
    Read.idx_main_v2 (ix2 b k) = ix2 b (0 : Fin 1) :=
  funext fun a => Fin.ext (by match a with | ⟨0, _⟩ => rfl | ⟨1, _⟩ => rfl)

/-- THE REFERENCE AT AN INDEX: its result at `(b, i, j)` is `(state b i / norm b) * (state b j / norm b)`. -/
theorem ref_apply (x : FVec Ideal S64x784 .f32) (b : Fin 64) (i j : Fin 1001) :
    Read.val_main_v8 (F := Ideal) x (ix3 b i j)
      = refOut (fun b i => stateOf x (ix2 b i)) (fun b => normOf x (ix2 b (0 : Fin 1))) b i j := by
  rw [Read.val_main_v8_apply, Read.val_main_v6_apply, Read.val_main_v7_apply, Read.val_main_v4_apply,
    Read.val_main_v5_apply, Read.val_main_v3_apply, Read.val_main_v3_apply, Read.val_main_v2_apply,
    Read.val_main_v2_apply, idx_left, idx_right, idx_norm, val_main_v0_eq, val_main_v1_eq]
  simp only [Ideal.hostDivf_def, Ideal.mulf_def]
  rfl

end Cert.OuterRef

end
-- ==== Proof.OuterPre.lean ====
/- From the precondition to "no row's norm is zero".

   The precondition is the conjunction of two `jnp.all`s: every entry of the argument has a finite absolute value,
   and every row's norm — the square root of the row's sum of squares of the zero-padded argument — is above zero.
   The second conjunct, read at row `b`, says `0 < norm b`, hence `norm b ≠ 0`. The precondition pads with the
   float constant `+0.0`, the reference with the integer `0` converted to a float: at the ideal instance both fill
   values are the constant function `0`, so the two norms are one term. -/
import proofs.«111341_j33603824124046_2_alg».proof.Proof.Gen.Pre_finite_inputs
import proofs.«111341_j33603824124046_2_alg».proof.Proof.OuterReference
import Idealize.ShloMosaic.Lib.ReduceAll
import Idealize.ShloMosaic.Lib.IdealHost

noncomputable section

namespace Cert.OuterRef

open Cert.ReferenceIdeal Cert.ReferenceIdeal.Gen Idealize.ShloMosaic Idealize.ShloMosaic.ValueIdx

/-- The scalar shape has exactly one index. -/
instance : Subsingleton Cert.Pre_finite_inputs.S_.Idx := ⟨fun a b => funext fun d => d.elim0⟩

/-- The two fill values are one scalar: the integer `0` converted to a float, and the float word `+0.0`, are both
    the extended real `0`. -/
theorem fill_eq :
    (sitofp (F := Ideal) .f32 (constantI S_ 32 0#32) : FVec Ideal S_ .f32)
      = constant (F := Ideal) S_ .f32 0x00000000#32 := by
  funext i
  rw [sitofp_apply, constant_apply, Ideal.ofBits_zero_f32]
  show (((0#32 : BitVec 32).toInt : ℝ) : EReal) = 0
  simp

/-- The norms, with the state's fill value spelt as the float constant `+0.0`. -/
theorem normOf_eq (x : FVec Ideal S64x784 .f32) :
    normOf x = Host.sqrt (F := Ideal) (broadcastInDim S64x1 ![0] bcast_S64_S64x1_0
      (Host.reduceAdd (F := Ideal)
        (mulf
          (pad S64x1001 ![0, 0] ![0, 217] ![0, 0] x (constant (F := Ideal) S_ .f32 0x00000000#32)
            pads_S64x784_S64x1001_000_02170 h_S_)
          (pad S64x1001 ![0, 0] ![0, 217] ![0, 0] x (constant (F := Ideal) S_ .f32 0x00000000#32)
            pads_S64x784_S64x1001_000_02170 h_S_))
        (constant (F := Ideal) S_ .f32 0x00000000#32) reducesTo_S64x1001_S64_d1 h_S_)) := by
  unfold normOf stateOf
  rw [fill_eq]

/-- The ideal comparison "greater than" that came out true says the strict order. -/
theorem lt_of_cmp_ogt {u v : EReal} (h : Ideal.cmp .ogt u v = 1#1) : v < u := by
  by_contra hn
  have h' : BitVec.ofBool (decide (v < u)) = 1#1 := h
  rw [decide_eq_false hn] at h'
  exact absurd h' (by decide)

/-- Under the precondition every row's norm is above zero. -/
theorem norm_pos (x : FVec Ideal S64x784 .f32) (h : Cert.Pre_finite_inputs.fn (F := Ideal) x = fun _ => 1#1)
    (b : Fin 64) : 0 < normOf x (ix2 b (0 : Fin 1)) := by
  have h0 := congrFun h ix0
  dsimp only [Cert.Pre_finite_inputs.fn] at h0
  obtain ⟨-, h2⟩ := IntOp.andi_eq_one.1 h0
  have h3 := Host.reduce_andi_all _ _ _ _ _ h2 (ix2 b (0 : Fin 1))
  rw [cmpf_apply, Ideal.cmpf_def] at h3
  have h4 := lt_of_cmp_ogt h3
  rw [broadcastInDim_scalar_apply, constant_apply, Ideal.ofBits_zero_f32] at h4
  rw [normOf_eq]
  exact h4

/-- Under the precondition no row's norm is zero. -/
theorem norm_ne_zero (x : FVec Ideal S64x784 .f32) (h : Cert.Pre_finite_inputs.fn (F := Ideal) x = fun _ => 1#1)
    (b : Fin 64) : normOf x (ix2 b (0 : Fin 1)) ≠ 0 :=
  (norm_pos x h b).ne'

end Cert.OuterRef

end
-- ==== Proof.OuterBridge.lean ====
/- The kernel's result meets the reference's.

   Both programs start from the same state (the argument padded with zeros) and the same column of row norms.
   The kernel's host part forms the reciprocal `1 / norm b` and its body returns, entry by entry,
   `(state b i * (1 / norm b)) * (state b j * (1 / norm b))`; the reference returns
   `(state b i / norm b) * (state b j / norm b)`. The precondition makes every norm positive, hence not zero, and
   off zero multiplying by the reciprocal is dividing: the two results are one array. -/
import proofs.«111341_j33603824124046_2_alg».proof.Proof.KiHost
import proofs.«111341_j33603824124046_2_alg».proof.Proof.OuterPre

noncomputable section

namespace Cert.OuterRef

open Idealize.ShloMosaic Idealize.ShloMosaic.ValueIdx

/-- The two programs print the same padded state. -/
theorem stateK_eq (x : FVec Ideal Cert.KernelIdeal.S64x784 .f32) :
    Cert.KernelIdeal.Outer.stateK (F := Ideal) x = stateOf x := rfl

/-- The two programs print the same column of norms. -/
theorem normK_eq (x : FVec Ideal Cert.KernelIdeal.S64x784 .f32) :
    Cert.KernelIdeal.Outer.normK (F := Ideal) x = normOf x := rfl

/-- The kernel's reciprocal column at row `b` is the ideal quotient `1 / norm b`: the numerator is the float
    constant `1.0` broadcast from a scalar. -/
theorem invK_apply (x : FVec Ideal Cert.KernelIdeal.S64x784 .f32) (b : Fin 64) :
    Cert.KernelIdeal.Outer.invK (F := Ideal) x (ix2 b (0 : Fin 1)) = Ideal.div 1 (normOf x (ix2 b (0 : Fin 1))) := by
  unfold Cert.KernelIdeal.Outer.invK
  rw [hostDivf_apply, broadcastInDim_scalar_apply, constant_apply, Ideal.ofBits_one_f32, normK_eq]

/-- THE BRIDGE: the kernel's entry-by-entry function of its state and reciprocal column is the reciprocal-first
    normalized outer product of the shared state and norms. -/
theorem G_eq_kerOut (x : FVec Ideal Cert.KernelIdeal.S64x784 .f32) (i : Cert.KernelIdeal.S64x1001x1001.Idx) :
    Cert.KernelIdeal.Outer.G (F := Ideal) (Cert.KernelIdeal.Outer.stateK x) (Cert.KernelIdeal.Outer.invK x) i
      = kerOut (fun b i => stateOf x (ix2 b i)) (fun b => normOf x (ix2 b (0 : Fin 1))) (i 0) (i 1) (i 2) := by
  obtain ⟨b, r, q, rfl⟩ : ∃ (b : Fin 64) (r q : Fin 1001), i = ix3 b r q := ⟨i 0, i 1, i 2, eq_ix3 i⟩
  show (Cert.KernelIdeal.Outer.stateK (F := Ideal) x (ix2 b r) * Cert.KernelIdeal.Outer.invK (F := Ideal) x (ix2 b (0 : Fin 1)))
        * (Cert.KernelIdeal.Outer.stateK (F := Ideal) x (ix2 b q) * Cert.KernelIdeal.Outer.invK (F := Ideal) x (ix2 b (0 : Fin 1)))
      = (stateOf x (ix2 b r) * Ideal.div 1 (normOf x (ix2 b (0 : Fin 1))))
        * (stateOf x (ix2 b q) * Ideal.div 1 (normOf x (ix2 b (0 : Fin 1))))
  rw [invK_apply, stateK_eq]

/-- THE EQUATION OF THE TWO RESULTS: under the precondition the kernel's result array is the reference's. -/
theorem ker_eq_ref (x : FVec Ideal Cert.KernelIdeal.S64x784 .f32)
    (h : Cert.Pre_finite_inputs.fn (F := Ideal) x = fun _ => 1#1) :
    Cert.KernelIdeal.Outer.G (F := Ideal) (Cert.KernelIdeal.Outer.stateK x) (Cert.KernelIdeal.Outer.invK x)
      = Cert.ReferenceIdeal.Read.val_main_v8 (F := Ideal) x := by
  funext i
  obtain ⟨b, r, q, rfl⟩ : ∃ (b : Fin 64) (r q : Fin 1001), i = ix3 b r q := ⟨i 0, i 1, i 2, eq_ix3 i⟩
  rw [ref_apply, G_eq_kerOut]
  exact kerOut_eq_refOut _ _ b r q (norm_ne_zero x h b)

end Cert.OuterRef

end
-- ==== Proof.lean ====
/-
  The certificate. The kernel pads the argument x : [64, 784] with zeros to a state of 1001 columns,
  takes each row's Euclidean norm n, and returns out[b, i, j] = (state[b, i] * (1 / n[b])) *
  (state[b, j] * (1 / n[b])); the reference returns (state[b, i] / n[b]) * (state[b, j] / n[b]).

  On the extended reals a quotient by a non-zero divisor is the product with its inverse, and 1 / n is
  that inverse, so the two results agree entry by entry wherever n[b] is not zero. On a row of zeros they
  differ (the reference's 0 / 0 and the kernel's 0 * (1 / 0) are different conventions of the extended
  reals), which is why the precondition asks, besides finite inputs, that every row's norm be positive:
  there the reference itself divides zero by zero.

  The three frames: both forms of the kernel run through the library's launch theorem for a pipeline two of
  whose windows read one array (the state), from the body's obligation at a symbolic grid point; the
  reference is straight-line host code, and its frame is its run with the result dropped. The kernel's
  idealization rewrote nothing, so preserves is trivial. For the algebraic claim the kernel's result array is
  read off the run's write-backs as one function of the argument, the reference's off its run, and the
  two are equal under the precondition.
-/
import proofs.«111341_j33603824124046_2_alg».proof.Defs
import proofs.«111341_j33603824124046_2_alg».proof.Proof.Gen.Kernel
import proofs.«111341_j33603824124046_2_alg».proof.Proof.Gen.Kernel.Skeleton
import proofs.«111341_j33603824124046_2_alg».proof.Proof.Gen.Kernel.Launch
import proofs.«111341_j33603824124046_2_alg».proof.Proof.Gen.Kernel.Points
import proofs.«111341_j33603824124046_2_alg».proof.Proof.Gen.KernelIdeal
import proofs.«111341_j33603824124046_2_alg».proof.Proof.Gen.KernelIdeal.Skeleton
import proofs.«111341_j33603824124046_2_alg».proof.Proof.Gen.KernelIdeal.Launch
import proofs.«111341_j33603824124046_2_alg».proof.Proof.Gen.KernelIdeal.Points
import proofs.«111341_j33603824124046_2_alg».proof.Proof.Gen.ReferenceIdeal
import proofs.«111341_j33603824124046_2_alg».proof.Proof.Gen.ReferenceIdeal.Run
import proofs.«111341_j33603824124046_2_alg».proof.Proof.Gen.ReferenceIdeal.Read
import proofs.«111341_j33603824124046_2_alg».proof.Proof.Gen.Pre_finite_inputs
import proofs.«111341_j33603824124046_2_alg».proof.Proof.KwLaunch
import proofs.«111341_j33603824124046_2_alg».proof.Proof.KiValue
import proofs.«111341_j33603824124046_2_alg».proof.Proof.OuterBridge
import Idealize.ShloMosaic.Adequacy
import Idealize.ShloMosaic.Init

noncomputable section

namespace Cert.Proof

open Idealize.ShloMosaic Idealize.ShloMosaic.TcCoe Idealize.SL.Sem

/-- The word-level kernel runs and leaves its argument as launched. -/
theorem frame_kernel : Cert.frame_Kernel := fun m ρ _ => Cert.Kernel.Outer.frame (F := Bits) m ρ

/-- So does its idealization. -/
theorem frame_kernelIdeal : Cert.frame_KernelIdeal := fun m ρ _ => Cert.KernelIdeal.Outer.frame (F := Ideal) m ρ

/-- The reference is host code: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the argument, the idealized kernel and the idealized reference end with equal results:
    the kernel's result is G of the padded argument and its reciprocal row norms, the reference's its own composed term,
    and where every row norm is non-zero the two are one function. -/
theorem algebraic : Cert.algebraic_KernelIdeal_ReferenceIdeal := by
  intro m ρ m' ρ' hpre hagree
  refine ⟨_, Cert.KernelIdeal.Outer.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c, Cert.ReferenceIdeal.Read.val_main_v8_eq]
  exact (Cert.OuterRef.ker_eq_ref _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
